-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x600000 : Shape := ⟨3, ![4, 2, 600000]⟩
abbrev S100000x128 : Shape := ⟨2, ![100000, 128]⟩
abbrev S4x128x128 : Shape := ⟨3, ![4, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_

variable [Facts]

def fn {F : FTy → Type} [FloatOps F] (main_arg0 : IVec S4x2x600000 32) (main_arg1 : FVec F S100000x128 .f32) (main_arg2 : FVec F S4x128x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  main_v8
-- ==== Kernel.lean ====
abbrev S4x2x600000 : Shape := ⟨3, ![4, 2, 600000]⟩
abbrev S100000x128 : Shape := ⟨2, ![100000, 128]⟩
abbrev S4x128x128 : Shape := ⟨3, ![4, 128, 128]⟩
abbrev S1x1x600000 : Shape := ⟨3, ![1, 1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S4000x128 : Shape := ⟨2, ![4000, 128]⟩
abbrev S1x128x128 : Shape := ⟨3, ![1, 128, 128]⟩
abbrev S128x128 : Shape := ⟨2, ![128, 128]⟩

abbrev nBuf : Space → Nat
  | .hbm => 189
  | .vmem => 11
  | .smem => 0
  | _ => 0

abbrev hbmTy0_0 (i : Nat) : BufTy := match i % 128 with
  | 0 => ⟨S4x2x600000, .i32⟩
  | 1 => ⟨S100000x128, .f32⟩
  | 2 => ⟨S4x128x128, .f32⟩
  | 3 => ⟨S1x1x600000, .i32⟩
  | 4 => ⟨S600000, .i32⟩
  | 5 => ⟨S1x1x600000, .i32⟩
  | 6 => ⟨S600000, .i32⟩
  | 7 => ⟨S_, .f32⟩
  | 8 => ⟨S600000, .f32⟩
  | 9 => ⟨S_, .f32⟩
  | 10 => ⟨S100000, .f32⟩
  | 11 => ⟨S600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .bf16⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .bf16⟩
  | 39 => ⟨S600000x128, .f32⟩
  | 40 => ⟨S_, .f32⟩
  | 41 => ⟨S100000x128, .f32⟩
  | 42 => ⟨S600000x1, .i32⟩
  | 43 => ⟨S100000x128, .f32⟩
  | 44 => ⟨S100000, .f32⟩
  | 45 => ⟨S100000x1, .f32⟩
  | 46 => ⟨S100000x128, .f32⟩
  | 47 => ⟨S100000x128, .f32⟩
  | 48 => ⟨S100000x128, .bf16⟩
  | 49 => ⟨S1x1x600000, .i32⟩
  | 50 => ⟨S600000, .i32⟩
  | 51 => ⟨S1x1x600000, .i32⟩
  | 52 => ⟨S600000, .i32⟩
  | 53 => ⟨S_, .f32⟩
  | 54 => ⟨S600000, .f32⟩
  | 55 => ⟨S_, .f32⟩
  | 56 => ⟨S100000, .f32⟩
  | 57 => ⟨S600000x1, .i32⟩
  | 58 => ⟨S100000, .f32⟩
  | 59 => ⟨S_, .f32⟩
  | 60 => ⟨S_, .f32⟩
  | 61 => ⟨S100000, .f32⟩
  | 62 => ⟨S100000, .f32⟩
  | 63 => ⟨S_, .f32⟩
  | 64 => ⟨S100000, .f32⟩
  | 65 => ⟨S600000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S100000x128, .bf16⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .bf16⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S100000, .f32⟩
  | 91 => ⟨S100000x1, .f32⟩
  | 92 => ⟨S100000x128, .f32⟩
  | 93 => ⟨S100000x128, .f32⟩
  | 94 => ⟨S100000x128, .bf16⟩
  | 95 => ⟨S1x1x600000, .i32⟩
  | 96 => ⟨S600000, .i32⟩
  | 97 => ⟨S1x1x600000, .i32⟩
  | 98 => ⟨S600000, .i32⟩
  | 99 => ⟨S_, .f32⟩
  | 100 => ⟨S600000, .f32⟩
  | 101 => ⟨S_, .f32⟩
  | 102 => ⟨S100000, .f32⟩
  | 103 => ⟨S600000x1, .i32⟩
  | 104 => ⟨S100000, .f32⟩
  | 105 => ⟨S_, .f32⟩
  | 106 => ⟨S_, .f32⟩
  | 107 => ⟨S100000, .f32⟩
  | 108 => ⟨S100000, .f32⟩
  | 109 => ⟨S_, .f32⟩
  | 110 => ⟨S100000, .f32⟩
  | 111 => ⟨S600000x1, .i32⟩
  | 112 => ⟨S100000, .f32⟩
  | 113 => ⟨S_, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S100000x128, .bf16⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S4x2x600000, .i32⟩

abbrev hbmTy0_1 (i : Nat) : BufTy := match i % 128 with
  | 0 => ⟨S600000, .i32⟩
  | 1 => ⟨S600000x1, .i32⟩
  | 2 => ⟨S600000x128, .bf16⟩
  | 3 => ⟨S600000x128, .f32⟩
  | 4 => ⟨S_, .f32⟩
  | 5 => ⟨S100000x128, .f32⟩
  | 6 => ⟨S600000x1, .i32⟩
  | 7 => ⟨S100000x128, .f32⟩
  | 8 => ⟨S100000, .f32⟩
  | 9 => ⟨S100000x1, .f32⟩
  | 10 => ⟨S100000x128, .f32⟩
  | 11 => ⟨S100000x128, .f32⟩
  | 12 => ⟨S100000x128, .bf16⟩
  | 13 => ⟨S1x1x600000, .i32⟩
  | 14 => ⟨S600000, .i32⟩
  | 15 => ⟨S1x1x600000, .i32⟩
  | 16 => ⟨S600000, .i32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S600000x1, .i32⟩
  | 30 => ⟨S100000, .f32⟩
  | 31 => ⟨S_, .f32⟩
  | 32 => ⟨S_, .f32⟩
  | 33 => ⟨S100000, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .bf16⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .bf16⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S100000, .f32⟩
  | 55 => ⟨S100000x1, .f32⟩
  | 56 => ⟨S100000x128, .f32⟩
  | 57 => ⟨S100000x128, .f32⟩
  | 58 => ⟨S100000x128, .bf16⟩
  | 59 => ⟨S4x128x128, .bf16⟩
  | 60 => ⟨S100000x128, .f32⟩
  | _ => ⟨S4x2x600000, .i32⟩

abbrev hbmTy (i : Nat) : BufTy := match i / 128 with
  | 0 => hbmTy0_0 i
  | 1 => hbmTy0_1 i
  | _ => ⟨S4x2x600000, .i32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .bf16⟩
  | .local _ .vmem, ⟨8, _⟩ => ⟨S4x128x128, .bf16⟩
  | .local _ .vmem, ⟨9, _⟩ => ⟨S4000x128, .f32⟩
  | .local _ .vmem, ⟨10, _⟩ => ⟨S4000x128, .f32⟩
  | _, _ => ⟨S4x2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_call4_v0 : Ref sig .tc := ⟨.hbm, 106, rfl⟩
abbrev main_call4_v1 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_call5_v0 : Ref sig .tc := ⟨.hbm, 114, rfl⟩
abbrev main_call5_v1 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_c_20 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_22 : Ref sig .tc := ⟨.hbm, 145, rfl⟩
abbrev main_v106 : Ref sig .tc := ⟨.hbm, 146, rfl⟩
abbrev main_cst_23 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_24 : Ref sig .tc := ⟨.hbm, 151, rfl⟩
abbrev main_call6_v0 : Ref sig .tc := ⟨.hbm, 152, rfl⟩
abbrev main_call6_v1 : Ref sig .tc := ⟨.hbm, 153, rfl⟩
abbrev main_v110 : Ref sig .tc := ⟨.hbm, 154, rfl⟩
abbrev main_cst_25 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_26 : Ref sig .tc := ⟨.hbm, 159, rfl⟩
abbrev main_call7_v0 : Ref sig .tc := ⟨.hbm, 160, rfl⟩
abbrev main_call7_v1 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_v120 : Ref sig .tc := ⟨.hbm, 169, rfl⟩
abbrev main_v121 : Ref sig .tc := ⟨.hbm, 170, rfl⟩
abbrev main_c_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_29 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4x2x600000_S1x1x600000_0_0_0 : S4x2x600000.Slices ![0, 0, 0] S1x1x600000
  shapeCasts_S1x1x600000_S600000 : S1x1x600000.ShapeCasts S600000
  slices_S4x2x600000_S1x1x600000_0_1_0 : S4x2x600000.Slices ![0, 1, 0] S1x1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  slices_S4x2x600000_S1x1x600000_1_0_0 : S4x2x600000.Slices ![1, 0, 0] S1x1x600000
  slices_S4x2x600000_S1x1x600000_1_1_0 : S4x2x600000.Slices ![1, 1, 0] S1x1x600000
  slices_S4x2x600000_S1x1x600000_2_0_0 : S4x2x600000.Slices ![2, 0, 0] S1x1x600000
  slices_S4x2x600000_S1x1x600000_2_1_0 : S4x2x600000.Slices ![2, 1, 0] S1x1x600000
  slices_S4x2x600000_S1x1x600000_3_0_0 : S4x2x600000.Slices ![3, 0, 0] S1x1x600000
  slices_S4x2x600000_S1x1x600000_3_1_0 : S4x2x600000.Slices ![3, 1, 0] S1x1x600000
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .bf16 = 32 ∨ (Rect.block (s := S4x128x128) S4x128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v33) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v101) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v135) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v136) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v137) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2x600000 : Shape := ⟨3, ![4, 2, 600000]⟩
abbrev S100000x128 : Shape := ⟨2, ![100000, 128]⟩
abbrev S4x128x128 : Shape := ⟨3, ![4, 128, 128]⟩
abbrev S_ : Shape := ⟨0, ![]⟩
abbrev S1x1x600000 : Shape := ⟨3, ![1, 1, 600000]⟩
abbrev S600000 : Shape := ⟨1, ![600000]⟩
abbrev S1x128x128 : Shape := ⟨3, ![1, 128, 128]⟩
abbrev S128x128 : Shape := ⟨2, ![128, 128]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩

abbrev nBuf : Space → Nat
  | .hbm => 193
  | .vmem => 0
  | .smem => 0
  | _ => 0

abbrev hbmTy0_0 (i : Nat) : BufTy := match i % 128 with
  | 0 => ⟨S4x2x600000, .i32⟩
  | 1 => ⟨S100000x128, .f32⟩
  | 2 => ⟨S4x128x128, .f32⟩
  | 3 => ⟨S_, .f32⟩
  | 4 => ⟨S100000x128, .f32⟩
  | 5 => ⟨S1x1x600000, .i32⟩
  | 6 => ⟨S600000, .i32⟩
  | 7 => ⟨S1x1x600000, .i32⟩
  | 8 => ⟨S600000, .i32⟩
  | 9 => ⟨S1x128x128, .f32⟩
  | 10 => ⟨S128x128, .f32⟩
  | 11 => ⟨S_, .f32⟩
  | 12 => ⟨S600000, .f32⟩
  | 13 => ⟨S_, .f32⟩
  | 14 => ⟨S100000, .f32⟩
  | 15 => ⟨S600000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S100000x128, .f32⟩
  | 44 => ⟨S600000x1, .i32⟩
  | 45 => ⟨S100000x128, .f32⟩
  | 46 => ⟨S100000, .f32⟩
  | 47 => ⟨S100000x1, .f32⟩
  | 48 => ⟨S100000x128, .f32⟩
  | 49 => ⟨S100000x128, .f32⟩
  | 50 => ⟨S100000x128, .f32⟩
  | 51 => ⟨S100000x128, .f32⟩
  | 52 => ⟨S1x1x600000, .i32⟩
  | 53 => ⟨S600000, .i32⟩
  | 54 => ⟨S1x1x600000, .i32⟩
  | 55 => ⟨S600000, .i32⟩
  | 56 => ⟨S1x128x128, .f32⟩
  | 57 => ⟨S128x128, .f32⟩
  | 58 => ⟨S_, .f32⟩
  | 59 => ⟨S600000, .f32⟩
  | 60 => ⟨S_, .f32⟩
  | 61 => ⟨S100000, .f32⟩
  | 62 => ⟨S600000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S_, .f32⟩
  | 69 => ⟨S100000, .f32⟩
  | 70 => ⟨S600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S100000x128, .f32⟩
  | 99 => ⟨S1x1x600000, .i32⟩
  | 100 => ⟨S600000, .i32⟩
  | 101 => ⟨S1x1x600000, .i32⟩
  | 102 => ⟨S600000, .i32⟩
  | 103 => ⟨S1x128x128, .f32⟩
  | 104 => ⟨S128x128, .f32⟩
  | 105 => ⟨S_, .f32⟩
  | 106 => ⟨S600000, .f32⟩
  | 107 => ⟨S_, .f32⟩
  | 108 => ⟨S100000, .f32⟩
  | 109 => ⟨S600000x1, .i32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S100000, .f32⟩
  | 117 => ⟨S600000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S_, .i32⟩
  | _ => ⟨S4x2x600000, .i32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S100000x128, .f32⟩
  | 10 => ⟨S600000x1, .i32⟩
  | 11 => ⟨S100000x128, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S100000x128, .f32⟩
  | 18 => ⟨S1x1x600000, .i32⟩
  | 19 => ⟨S600000, .i32⟩
  | 20 => ⟨S1x1x600000, .i32⟩
  | 21 => ⟨S600000, .i32⟩
  | 22 => ⟨S1x128x128, .f32⟩
  | 23 => ⟨S128x128, .f32⟩
  | 24 => ⟨S_, .f32⟩
  | 25 => ⟨S600000, .f32⟩
  | 26 => ⟨S_, .f32⟩
  | 27 => ⟨S100000, .f32⟩
  | 28 => ⟨S600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S600000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S_, .f32⟩
  | 56 => ⟨S100000x128, .f32⟩
  | 57 => ⟨S600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S100000x128, .f32⟩
  | _ => ⟨S4x2x600000, .i32⟩

abbrev hbmTy (i : Nat) : BufTy := match i / 128 with
  | 0 => hbmTy0_0 i
  | 1 => hbmTy0_1 i
  | _ => ⟨S4x2x600000, .i32⟩

abbrev bufTy : (tb : Table) → Fin (tcTables nBuf tb) → BufTy
  | .hbm, ⟨i, _⟩ => hbmTy i
  | _, _ => ⟨S4x2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_call2_v0 : Ref sig .tc := ⟨.hbm, 65, rfl⟩
abbrev main_call2_v1 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_call3_v0 : Ref sig .tc := ⟨.hbm, 73, rfl⟩
abbrev main_call3_v1 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_call4_v0 : Ref sig .tc := ⟨.hbm, 112, rfl⟩
abbrev main_call4_v1 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_call5_v0 : Ref sig .tc := ⟨.hbm, 120, rfl⟩
abbrev main_call5_v1 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_20 : Ref sig .tc := ⟨.hbm, 127, rfl⟩
abbrev main_v90 : Ref sig .tc := ⟨.hbm, 128, rfl⟩
abbrev main_v91 : Ref sig .tc := ⟨.hbm, 129, rfl⟩
abbrev main_c_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_23 : Ref sig .tc := ⟨.hbm, 152, rfl⟩
abbrev main_v112 : Ref sig .tc := ⟨.hbm, 153, rfl⟩
abbrev main_cst_24 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_25 : Ref sig .tc := ⟨.hbm, 158, rfl⟩
abbrev main_call6_v0 : Ref sig .tc := ⟨.hbm, 159, rfl⟩
abbrev main_call6_v1 : Ref sig .tc := ⟨.hbm, 160, rfl⟩
abbrev main_v116 : Ref sig .tc := ⟨.hbm, 161, rfl⟩
abbrev main_cst_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_27 : Ref sig .tc := ⟨.hbm, 166, rfl⟩
abbrev main_call7_v0 : Ref sig .tc := ⟨.hbm, 167, rfl⟩
abbrev main_call7_v1 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_28 : Ref sig .tc := ⟨.hbm, 174, rfl⟩
abbrev main_v125 : Ref sig .tc := ⟨.hbm, 175, rfl⟩
abbrev main_v126 : Ref sig .tc := ⟨.hbm, 176, rfl⟩
abbrev main_c_29 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_30 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S4x2x600000_S1x1x600000_0_0_0 : S4x2x600000.Slices ![0, 0, 0] S1x1x600000
  shapeCasts_S1x1x600000_S600000 : S1x1x600000.ShapeCasts S600000
  slices_S4x2x600000_S1x1x600000_0_1_0 : S4x2x600000.Slices ![0, 1, 0] S1x1x600000
  slices_S4x128x128_S1x128x128_0_0_0 : S4x128x128.Slices ![0, 0, 0] S1x128x128
  shapeCasts_S1x128x128_S128x128 : S1x128x128.ShapeCasts S128x128
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x2x600000_S1x1x600000_1_0_0 : S4x2x600000.Slices ![1, 0, 0] S1x1x600000
  slices_S4x2x600000_S1x1x600000_1_1_0 : S4x2x600000.Slices ![1, 1, 0] S1x1x600000
  slices_S4x128x128_S1x128x128_1_0_0 : S4x128x128.Slices ![1, 0, 0] S1x128x128
  slices_S4x2x600000_S1x1x600000_2_0_0 : S4x2x600000.Slices ![2, 0, 0] S1x1x600000
  slices_S4x2x600000_S1x1x600000_2_1_0 : S4x2x600000.Slices ![2, 1, 0] S1x1x600000
  slices_S4x128x128_S1x128x128_2_0_0 : S4x128x128.Slices ![2, 0, 0] S1x128x128
  slices_S4x2x600000_S1x1x600000_3_0_0 : S4x2x600000.Slices ![3, 0, 0] S1x1x600000
  slices_S4x2x600000_S1x1x600000_3_1_0 : S4x2x600000.Slices ![3, 1, 0] S1x1x600000
  slices_S4x128x128_S1x128x128_3_0_0 : S4x128x128.Slices ![3, 0, 0] S1x128x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibLeadingUnitCast.lean ====
/-
  A block of shape [1, a, b] and its matrix of shape [a, b], at any extents.

  Casting between the two shapes keeps every element's row-major position, `(0 · a + p) · b + q = p · b + q`: the matrix
  reads `[p, q]` where the block reads `[0, p, q]`, and the other way round. Stated at indices built from coordinates.
-/
import Idealize.ShloMosaic.Lib.ValueIdx
import Idealize.ShloMosaic.Lib.Pipeline.Value

noncomputable section

namespace Cert.LibLeadingUnitCast

open Idealize.ShloMosaic Idealize.ShloMosaic.ValueIdx

/-! ## The two casts

Both casts keep the row-major position: `(0 · a + p) · b + q = p · b + q`. -/

/-- The matrix of a block reads `[p, q]` at the block's `[0, p, q]`. -/
theorem dropUnit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show ((0 : Nat) * a + p.val) * b + q.val = p.val * b + q.val
  rw [Nat.zero_mul, Nat.zero_add]

/-- The block of a matrix reads `[0, p, q]` at the matrix's `[p, q]`. -/
theorem addUnit_apply {a b : Nat} {α : Type} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) := by
  refine shapeCast_apply v h (ix3 (0 : Fin 1) p q) (ix2 p q) ?_
  rw [Shape.rowMajor_val_three, Shape.rowMajor_val_two]
  show p.val * b + q.val = ((0 : Nat) * a + p.val) * b + q.val
  rw [Nat.zero_mul, Nat.zero_add]

end Cert.LibLeadingUnitCast

end
-- ==== Proof.BodyEntry.lean ====
/-
  The kernel body's stored value at one entry of its tile.

  At a grid point the body holds four aggregate tiles X₀ … X₃ of shape [4000, 128] and the stacked weights, from which
  it cuts the four matrices W₀ … W₃ as blocks of shape [1, 128, 128]. It multiplies each tile by its matrix on the matrix
  unit, accumulating into zero, and adds the four products in order. On the extended reals the matrix unit's product into
  zero is the plain sum over the contracted axis, a cast between [1, 128, 128] and [128, 128] keeps every element, and a
  cast of a tile to its own shape is the tile; so entry (p, q) of what the body stores is

      ((Σₖ X₀(p,k)·W₀(0,k,q) + Σₖ X₁(p,k)·W₁(0,k,q)) + Σₖ X₂(p,k)·W₂(0,k,q)) + Σₖ X₃(p,k)·W₃(0,k,q).
-/
import proofs.«109524_j1056561954823_2_alg».proof.Proof.Gen.KernelIdeal.Skeleton
import proofs.«109524_j1056561954823_2_alg».proof.Proof.LibPlainProduct
import proofs.«109524_j1056561954823_2_alg».proof.Proof.LibLeadingUnitCast
import Idealize.ShloMosaic.Lib.Pipeline.Value
import Idealize.ShloMosaic.Lib.ValueIdx
import Idealize.ShloMosaic.PureOps.Ideal.Laws

noncomputable section

namespace Cert.KernelIdeal.BodyEntry

open Cert.KernelIdeal Cert.KernelIdeal.Gen Idealize.ShloMosaic Idealize.ShloMosaic.ValueIdx
open scoped BigOperators

/-- The body's contraction is a plain product: [4000, 128] by [128, 128], the tile's columns against the matrix's rows. -/
theorem plain : Cert.Lib.PlainProduct.IsPlain dot_S4000x128_S128x128_S4000x128_1_0_0_1_n_n :=
  ⟨rfl, rfl, rfl, rfl, rfl, rfl⟩

/-- One relation's product in the body, at entry (p, q): row p of the tile against column q of the matrix cut from the
    weights' block. -/
theorem product_apply (x : FVec Ideal S4000x128 .bf16) (w : FVec Ideal S1x128x128 .bf16) (p : Fin 4000) (q : Fin 128) :
    matmul dot_S4000x128_S128x128_S4000x128_1_0_0_1_n_n none (shapeCast S4000x128 x shapeCasts_S4000x128_S4000x128)
        (shapeCast S128x128 w shapeCasts_S1x128x128_S128x128) (constant S4000x128 .f32 0x00000000#32) (ix2 p q)
      = ∑ k : Fin 128, x (ix2 p k) * w (ix3 (0 : Fin 1) k q) := by
  rw [shapeCast_self]
  refine (Cert.Lib.PlainProduct.matmul_zero_apply plain rfl rfl none x _ p q).trans ?_
  exact Finset.sum_congr rfl fun k _ => by rw [Cert.LibLeadingUnitCast.dropUnit_apply]

/-- What the body stores, at entry (p, q) of its tile: the four products added in the body's order. -/
theorem stored_apply (x0 x1 x2 x3 : FVec Ideal S4000x128 .bf16) (w0 w1 w2 w3 : FVec Ideal S1x128x128 .bf16)
    (p : Fin 4000) (q : Fin 128) :
    k0_pay1 (F := Ideal) x0 w0 x1 w1 x2 w2 x3 w3 (ix2 p q)
      = ((∑ k : Fin 128, x0 (ix2 p k) * w0 (ix3 (0 : Fin 1) k q) + ∑ k : Fin 128, x1 (ix2 p k) * w1 (ix3 (0 : Fin 1) k q))
          + ∑ k : Fin 128, x2 (ix2 p k) * w2 (ix3 (0 : Fin 1) k q))
        + ∑ k : Fin 128, x3 (ix2 p k) * w3 (ix3 (0 : Fin 1) k q) := by
  unfold k0_pay1
  rw [addf_apply, addf_apply, addf_apply, product_apply, product_apply, product_apply, product_apply]

end Cert.KernelIdeal.BodyEntry

end
-- ==== Proof.RelationSum.lean ====
/-
  The sum over the four relations of a dense transform, as one function of whole arrays.

  Given one aggregated feature matrix per relation, A₀ … A₃ of shape [100000, 128], and the stacked weights W of shape
  [4, 128, 128], entry (i, j) of the result is

      ((Σₖ A₀(i,k)·W(0,k,j) + Σₖ A₁(i,k)·W(1,k,j)) + Σₖ A₂(i,k)·W(2,k,j)) + Σₖ A₃(i,k)·W(3,k,j)

  on the extended reals. Addition there is a commutative monoid, so a leading zero and the grouping of the four terms
  do not matter: `zero_add_relationSum` is the only law that joins the two programs' ways of adding the relations up,
  and it needs no finiteness of any entry.
-/
import Idealize.ShloMosaic.PureOps.Ideal
import Idealize.ShloMosaic.Lib.ValueIdx

noncomputable section

namespace Cert.RelationSum

open Idealize.ShloMosaic Idealize.ShloMosaic.ValueIdx
open scoped BigOperators

/-- One relation's dense transform at entry (i, j): row i of the aggregate against column j of weight matrix r. -/
def transform (A : (⟨2, ![100000, 128]⟩ : Shape).Idx → EReal) (W : (⟨3, ![4, 128, 128]⟩ : Shape).Idx → EReal)
    (r : Fin 4) (i : Fin 100000) (j : Fin 128) : EReal :=
  ∑ k : Fin 128, A (ix2 i k) * W (ix3 r k j)

/-- The four relations' transforms added up, relation 0 first. -/
def relationSum (A0 A1 A2 A3 : (⟨2, ![100000, 128]⟩ : Shape).Idx → EReal)
    (W : (⟨3, ![4, 128, 128]⟩ : Shape).Idx → EReal) : (⟨2, ![100000, 128]⟩ : Shape).Idx → EReal := fun i =>
  ((transform A0 W 0 (i 0) (i 1) + transform A1 W 1 (i 0) (i 1)) + transform A2 W 2 (i 0) (i 1))
    + transform A3 W 3 (i 0) (i 1)

/-- Starting the sum from zero changes nothing: 0 + a = a on the extended reals, whatever a is. -/
theorem zero_add_relationSum (a b c d : EReal) : (((0 + a) + b) + c) + d = ((a + b) + c) + d := by
  rw [zero_add]

end Cert.RelationSum

end
-- ==== Proof.TileValue.lean ====
/-
  The kernel's result array as one function of the arrays its region is launched on.

  The grid has 25 points; point t is given rows 4000·t … 4000·t + 3999 of each of the four aggregate arrays and the whole
  of the stacked weights, and writes back rows 4000·t … 4000·t + 3999 of the result. What it writes at row p, column q
  of its tile is the body's stored value there (the four products added in order), and each factor of it is an entry of
  an aggregate array in row 4000·t + p, or an entry of the weights: so the tile is the same rows of `relationSum` of the
  whole arrays. The 25 tiles cover every row (row r lies in tile r / 4000), hence the array after the run IS
  `relationSum` of the four aggregates and the weights as the region found them.
-/
import proofs.«109524_j1056561954823_2_alg».proof.Proof.Gen.KernelIdeal.Value
import proofs.«109524_j1056561954823_2_alg».proof.Proof.BodyEntry
import proofs.«109524_j1056561954823_2_alg».proof.Proof.RelationSum
import Idealize.ShloMosaic.Lib.Pipeline.Value
import Idealize.ShloMosaic.Lib.ValueIdx

set_option maxRecDepth 16384

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.RelationSum
open scoped BigOperators

theorem hz : (![0, 0] : Fin 2 → Nat) = fun _ => 0 := funext fun a => by fin_cases a <;> rfl

/-- The index maps, decided over the 25 points: every aggregate tile and the result tile sit at block row t, block
    column 0; the weights' block is always block (0, 0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_5.index t (0 : Fin 2) = t.val ∧ win0_5.index t (1 : Fin 2) = 0)
    ∧ win0_4.index t (0 : Fin 3) = 0 ∧ win0_4.index t (1 : Fin 3) = 0 ∧ win0_4.index t (2 : Fin 3) = 0 :=
  (by decide +kernel : ∀ t : Fin grid0.N, _)

/-- Window 0 at point t reads rows 4000·t … 4000·t + 3999 of the array it is laid over. -/
theorem tile0_read (t : Fin cfg0.N) (A : S100000x128.Idx → EReal) (p : Fin 4000) (k : Fin 128)
    (i : Fin 100000) (hi : i.val = t.val * 4000 + p.val) :
    (((cfg0.win 0).blk t).view.read (Elt Ideal) A : FVec Ideal S4000x128 .bf16) (ix2 p k) = A (ix2 i k) := by
  have e := index_facts t
  rw [View.read_apply]
  show A _ = A _
  refine congrArg A (funext fun a => Fin.ext ?_)
  match a with
  | ⟨0, _⟩ => show win0_0.index t (0 : Fin 2) * 4000 + 1 * p.val = i.val; rw [e.1.1, hi]; omega
  | ⟨1, _⟩ => show win0_0.index t (1 : Fin 2) * 128 + 1 * k.val = k.val; rw [e.1.2]; omega

/-- Window 1 at point t reads rows 4000·t … 4000·t + 3999 of the array it is laid over. -/
theorem tile1_read (t : Fin cfg0.N) (A : S100000x128.Idx → EReal) (p : Fin 4000) (k : Fin 128)
    (i : Fin 100000) (hi : i.val = t.val * 4000 + p.val) :
    (((cfg0.win 1).blk t).view.read (Elt Ideal) A : FVec Ideal S4000x128 .bf16) (ix2 p k) = A (ix2 i k) := by
  have e := index_facts t
  rw [View.read_apply]
  show A _ = A _
  refine congrArg A (funext fun a => Fin.ext ?_)
  match a with
  | ⟨0, _⟩ => show win0_1.index t (0 : Fin 2) * 4000 + 1 * p.val = i.val; rw [e.2.1.1, hi]; omega
  | ⟨1, _⟩ => show win0_1.index t (1 : Fin 2) * 128 + 1 * k.val = k.val; rw [e.2.1.2]; omega

/-- Window 2 at point t reads rows 4000·t … 4000·t + 3999 of the array it is laid over. -/
theorem tile2_read (t : Fin cfg0.N) (A : S100000x128.Idx → EReal) (p : Fin 4000) (k : Fin 128)
    (i : Fin 100000) (hi : i.val = t.val * 4000 + p.val) :
    (((cfg0.win 2).blk t).view.read (Elt Ideal) A : FVec Ideal S4000x128 .bf16) (ix2 p k) = A (ix2 i k) := by
  have e := index_facts t
  rw [View.read_apply]
  show A _ = A _
  refine congrArg A (funext fun a => Fin.ext ?_)
  match a with
  | ⟨0, _⟩ => show win0_2.index t (0 : Fin 2) * 4000 + 1 * p.val = i.val; rw [e.2.2.1.1, hi]; omega
  | ⟨1, _⟩ => show win0_2.index t (1 : Fin 2) * 128 + 1 * k.val = k.val; rw [e.2.2.1.2]; omega

/-- Window 3 at point t reads rows 4000·t … 4000·t + 3999 of the array it is laid over. -/
theorem tile3_read (t : Fin cfg0.N) (A : S100000x128.Idx → EReal) (p : Fin 4000) (k : Fin 128)
    (i : Fin 100000) (hi : i.val = t.val * 4000 + p.val) :
    (((cfg0.win 3).blk t).view.read (Elt Ideal) A : FVec Ideal S4000x128 .bf16) (ix2 p k) = A (ix2 i k) := by
  have e := index_facts t
  rw [View.read_apply]
  show A _ = A _
  refine congrArg A (funext fun a => Fin.ext ?_)
  match a with
  | ⟨0, _⟩ => show win0_3.index t (0 : Fin 2) * 4000 + 1 * p.val = i.val; rw [e.2.2.2.1.1, hi]; omega
  | ⟨1, _⟩ => show win0_3.index t (1 : Fin 2) * 128 + 1 * k.val = k.val; rw [e.2.2.2.1.2]; omega

/-- The weights' window at every point reads the whole array it is laid over. -/
theorem weights_read (t : Fin cfg0.N) (W : S4x128x128.Idx → EReal) (z : S4x128x128.Idx) :
    (((cfg0.win 4).blk t).view.read (Elt Ideal) W : FVec Ideal S4x128x128 .bf16) z = W z := by
  have e := index_facts t
  rw [View.read_apply]
  show W _ = W _
  refine congrArg W (funext fun a => Fin.ext ?_)
  match a with
  | ⟨0, _⟩ => show win0_4.index t (0 : Fin 3) * 4 + 1 * (z 0).val = (z 0).val; rw [e.2.2.2.2.2.1]; omega
  | ⟨1, _⟩ => show win0_4.index t (1 : Fin 3) * 128 + 1 * (z 1).val = (z 1).val; rw [e.2.2.2.2.2.2.1]; omega
  | ⟨2, _⟩ => show win0_4.index t (2 : Fin 3) * 128 + 1 * (z 2).val = (z 2).val; rw [e.2.2.2.2.2.2.2]; omega

/-- The rectangle the body cuts relation 0's matrix through sends (0, k, q) to (0, k, q) of the weights' block. -/
theorem cut0_idx (k q : Fin 128) : r0_1.idx (ix3 (0 : Fin 1) k q) = ix3 (0 : Fin 4) k q :=
  funext fun a => Fin.ext (by
    match a with
    | ⟨0, _⟩ => rfl
    | ⟨1, _⟩ => show 0 + 1 * k.val = k.val; omega
    | ⟨2, _⟩ => show 0 + 1 * q.val = q.val; omega)

/-- The rectangle the body cuts relation 1's matrix through sends (0, k, q) to (1, k, q) of the weights' block. -/
theorem cut1_idx (k q : Fin 128) : r0_2.idx (ix3 (0 : Fin 1) k q) = ix3 (1 : Fin 4) k q :=
  funext fun a => Fin.ext (by
    match a with
    | ⟨0, _⟩ => rfl
    | ⟨1, _⟩ => show 0 + 1 * k.val = k.val; omega
    | ⟨2, _⟩ => show 0 + 1 * q.val = q.val; omega)

/-- The rectangle the body cuts relation 2's matrix through sends (0, k, q) to (2, k, q) of the weights' block. -/
theorem cut2_idx (k q : Fin 128) : r0_3.idx (ix3 (0 : Fin 1) k q) = ix3 (2 : Fin 4) k q :=
  funext fun a => Fin.ext (by
    match a with
    | ⟨0, _⟩ => rfl
    | ⟨1, _⟩ => show 0 + 1 * k.val = k.val; omega
    | ⟨2, _⟩ => show 0 + 1 * q.val = q.val; omega)

/-- The rectangle the body cuts relation 3's matrix through sends (0, k, q) to (3, k, q) of the weights' block. -/
theorem cut3_idx (k q : Fin 128) : r0_4.idx (ix3 (0 : Fin 1) k q) = ix3 (3 : Fin 4) k q :=
  funext fun a => Fin.ext (by
    match a with
    | ⟨0, _⟩ => rfl
    | ⟨1, _⟩ => show 0 + 1 * k.val = k.val; omega
    | ⟨2, _⟩ => show 0 + 1 * q.val = q.val; omega)

/-- The body's stored value at entry (p, q) of a tile whose factors are entries of whole arrays — tile r's row p is
    row `i 0` of aggregate r, the weights' block is the weights, q is column `i 1` — is `relationSum` at i. -/
theorem stored_eq_relationSum (x0 x1 x2 x3 : FVec Ideal S4000x128 .bf16) (x4 : FVec Ideal S4x128x128 .bf16)
    (A0 A1 A2 A3 : S100000x128.Idx → EReal) (W : S4x128x128.Idx → EReal) (p : Fin 4000) (q : Fin 128)
    (i : S100000x128.Idx)
    (h0 : ∀ k, x0 (ix2 p k) = A0 (ix2 (i 0) k)) (h1 : ∀ k, x1 (ix2 p k) = A1 (ix2 (i 0) k))
    (h2 : ∀ k, x2 (ix2 p k) = A2 (ix2 (i 0) k)) (h3 : ∀ k, x3 (ix2 p k) = A3 (ix2 (i 0) k))
    (hW : ∀ z, x4 z = W z) (hq : i 1 = q) :
    k0_pay1 (F := Ideal) x0 (View.ld x4 r0_1) x1 (View.ld x4 r0_2) x2 (View.ld x4 r0_3) x3 (View.ld x4 r0_4) (ix2 p q)
      = relationSum A0 A1 A2 A3 W i := by
  rw [Cert.KernelIdeal.BodyEntry.stored_apply]
  unfold relationSum transform
  rw [hq]
  simp only [h0, h1, h2, h3, hW, cut0_idx, cut1_idx, cut2_idx, cut3_idx]

/-- A POINT'S TILE, over any arrays: what the body leaves at point t, from the windows' blocks of arrays A₀ … A₃ and W,
    is rows 4000·t … 4000·t + 3999 of `relationSum A₀ A₁ A₂ A₃ W`. -/
theorem tile_value (t : Fin cfg0.N) (A0 A1 A2 A3 : S100000x128.Idx → EReal) (W : S4x128x128.Idx → EReal) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) W))
      = ((cfg0.win 5).blk t).view.read (Elt Ideal) (relationSum A0 A1 A2 A3 W) := by
  unfold out0_5
  rw [View.canon_unit_zero hz]
  simp only [View.ld_unit_zero (S := S4000x128) hz]
  have e := index_facts t
  funext j
  obtain ⟨p, q, rfl⟩ : ∃ (p : Fin 4000) (q : Fin 128), j = ix2 p q := ⟨j 0, j 1, eq_ix2 j⟩
  have hi0 : ((((cfg0.win 5).blk t).view.emb (ix2 p q) : S100000x128.Idx) 0).val = t.val * 4000 + p.val := by
    show win0_5.index t (0 : Fin 2) * 4000 + 1 * p.val = _; rw [e.2.2.2.2.1.1]; omega
  have hi1 : ((((cfg0.win 5).blk t).view.emb (ix2 p q) : S100000x128.Idx) 1).val = q.val := by
    show win0_5.index t (1 : Fin 2) * 128 + 1 * q.val = _; rw [e.2.2.2.2.1.2]; omega
  exact stored_eq_relationSum _ _ _ _ _ A0 A1 A2 A3 W p q (((cfg0.win 5).blk t).view.emb (ix2 p q))
    (fun k => tile0_read t A0 p k _ hi0) (fun k => tile1_read t A1 p k _ hi0)
    (fun k => tile2_read t A2 p k _ hi0) (fun k => tile3_read t A3 p k _ hi0)
    (fun z => weights_read t W z) (Fin.ext hi1)

/-- An index of the result array is in point t's tile iff each coordinate is in the tile's range on its axis. -/
theorem mem_tile (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v137).slice (win0_5.rect t)).set ↔ _
  rw [View.set_slice_whole, Rect.mem_set_unit]
  exact Iff.rfl

/-- The 25 tiles cover the result array: row r lies in tile r / 4000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have e := index_facts ⟨(i 0).val / 4000, by rw [hN]; omega⟩
  refine ⟨⟨(i 0).val / 4000, by rw [hN]; omega⟩, flush0_5 _, ?_⟩
  rw [mem_tile]
  intro a
  match a with
  | ⟨0, _⟩ =>
    show win0_5.index _ (0 : Fin 2) * 4000 ≤ (i 0).val ∧ (i 0).val < win0_5.index _ (0 : Fin 2) * 4000 + 4000
    rw [e.2.2.2.2.1.1]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e.2.2.2.2.1.2]; omega

variable (m : (ℓ : Loc nD τ sig) → Buf (Elt Ideal) ℓ) (ρ : Dev nD → PrngReg)

/-- WHAT POINT t WRITES BACK is rows 4000·t … 4000·t + 3999 of `relationSum` of the arrays as the region finds them. -/
theorem flushed_eq (c : Dev nD) (t : Fin cfg0.N) :
    (dats m 0 c).flushed 5 t = ((cfg0.win 5).blk t).view.read (Elt Ideal)
      (relationSum (V m c main_v33) (V m c main_v67) (V m c main_v101) (V m c main_v135) (V m c main_v136)) :=
  (Cert.KernelIdeal.Value.flushed5 m c t).trans
    (tile_value t (V m c main_v33) (V m c main_v67) (V m c main_v101) (V m c main_v135) (V m c main_v136))

/-- THE ARRAY after the run: the tiles cover every row, so it is `relationSum` of the region-entry arrays. -/
theorem final (c : Dev nD) : (dats m 0 c).arrAt 5 cfg0.N
    = relationSum (V m c main_v33) (V m c main_v67) (V m c main_v101) (V m c main_v135) (V m c main_v136) :=
  (dats m 0 c).arrAt_eq_of_cover 5 _ (fun t _ => flushed_eq m c t) covered

/-- The kernel's run, read: the result array at `relationSum` of the region-entry arrays, the arguments unchanged. -/
theorem run : θ_run defs (onTc (τ := τ) (main (F := Ideal))) ⟨m, fun _ => 0, ρ⟩ fun r => ∀ c : Dev nD,
      r.2.mem ((c : Thread nD τ).loc main_v137)
        = relationSum (V m c main_v33) (V m c main_v67) (V m c main_v101) (V m c main_v135) (V m c main_v136)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tile

end
-- ==== Proof.LibTypedRefs.lean ====
/-
  Contents carried along an equation of buffer types.

  An operation of a function that a host program calls reads and writes its buffers through typed references: a buffer
  together with the equation between the buffer's declared type and the type of the value it holds. Contents pass from one
  type to the other by transport along that equation. When the program's buffers are literal, the two types are the
  same, and transport is the identity — but only up to unfolding the buffer table, which a proof should not ask the
  unifier to do across a large term: comparing a transported term with its plain form by reflexivity alone can send the
  unifier into the operations underneath. These three lemmas remove the transports one at a time instead: the
  round trip is the identity for every typed reference (by substituting the equation), and a single transport is
  removed given that the two sides are equal across the two types (which, for literal buffers, a plain equation
  supplies through `heq_of_eq`).
-/
import Idealize.ShloMosaic.Lib.StableHlo

namespace Cert.Lib.TypedRefs

open Idealize.ShloMosaic Idealize.ShloMosaic.StableHlo

variable {sig : RefSig} {Val : EltTy → Type} {T : BufTy}

/-- Out of the buffer's type and back into the value's type: the identity. -/
theorem ofBuf_toBuf (x : TRef sig T) (v : T.Contents Val) : x.ofBuf (x.toBuf v) = v := by
  obtain ⟨r, h, _, _⟩ := x
  subst h
  rfl

/-- Contents of the buffer, read at the value's type, are what they equal across the two types. -/
theorem ofBuf_eq_of_heq (x : TRef sig T) (v : x.ref.ty.Contents Val) (w : T.Contents Val) (h : HEq v w) : x.ofBuf v = w := by
  obtain ⟨r, h', _, _⟩ := x
  subst h'
  exact eq_of_heq h

/-- A value, written at the buffer's type, is what it equals across the two types. -/
theorem toBuf_eq_of_heq (x : TRef sig T) (w : T.Contents Val) (v : x.ref.ty.Contents Val) (h : HEq w v) : x.toBuf w = v := by
  obtain ⟨r, h', _, _⟩ := x
  subst h'
  exact eq_of_heq h

end Cert.Lib.TypedRefs
-- ==== Proof.HostTransports.lean ====
/-
  Values carried unchanged through the host code's bookkeeping.

  The kernel's host code clamps each degree vector below by 1 through a small outlined function; that function reads and
  writes its buffers through typed references, which carry a value between the buffer's declared type and the value's
  own type. For the literal buffers of this program the two types coincide, so each such passage is the identity; it is
  stated here once per buffer, over an arbitrary value, so that nothing has to be compared underneath it. Likewise, on
  the extended reals narrowing a float vector to bf16 or widening it back to f32 changes no entry.
-/
import proofs.«109524_j1056561954823_2_alg».proof.KernelIdeal
import proofs.«109524_j1056561954823_2_alg».proof.Proof.LibTypedRefs
import Idealize.ShloMosaic.Lib.StableHlo
import Idealize.ShloMosaic.PureOps.Ideal

noncomputable section

namespace Cert.KernelIdeal.HostSide

open Cert.KernelIdeal Idealize.ShloMosaic Idealize.ShloMosaic.StableHlo

/-- Call 0 of the clamp: its constant, its operand and its result pass between the buffers' declared types and the
    values' types unchanged (the types are the same once the buffer table is read). -/
theorem const0 (h1 h2 h3) (v : (⟨S_, .f32⟩ : BufTy).Contents (Elt Ideal)) :
    (TRef.of (sig := sig) (T := ⟨S_, .f32⟩) main_cst_1 h1 h2 h3).ofBuf v = v := rfl
theorem operand0 (h1 h2 h3) (v : (⟨S100000, .f32⟩ : BufTy).Contents (Elt Ideal)) :
    (TRef.of (sig := sig) (T := ⟨S100000, .f32⟩) main_v7 h1 h2 h3).ofBuf v = v := rfl
theorem result0 (h1 h2 h3) (v : (⟨S100000, .f32⟩ : BufTy).Contents (Elt Ideal)) :
    (TRef.of (sig := sig) (T := ⟨S100000, .f32⟩) main_v8 h1 h2 h3).toBuf v = v := rfl

/-- Call 1 of the clamp: its constant, its operand and its result pass between the buffers' declared types and the
    values' types unchanged (the types are the same once the buffer table is read). -/
theorem const1 (h1 h2 h3) (v : (⟨S_, .f32⟩ : BufTy).Contents (Elt Ideal)) :
    (TRef.of (sig := sig) (T := ⟨S_, .f32⟩) main_cst_3 h1 h2 h3).ofBuf v = v := rfl
theorem operand1 (h1 h2 h3) (v : (⟨S100000, .f32⟩ : BufTy).Contents (Elt Ideal)) :
    (TRef.of (sig := sig) (T := ⟨S100000, .f32⟩) main_v11 h1 h2 h3).ofBuf v = v := rfl
theorem result1 (h1 h2 h3) (v : (⟨S100000, .f32⟩ : BufTy).Contents (Elt Ideal)) :
    (TRef.of (sig := sig) (T := ⟨S100000, .f32⟩) main_v12 h1 h2 h3).toBuf v = v := rfl

/-- Call 2 of the clamp: its constant, its operand and its result pass between the buffers' declared types and the
    values' types unchanged (the types are the same once the buffer table is read). -/
theorem const2 (h1 h2 h3) (v : (⟨S_, .f32⟩ : BufTy).Contents (Elt Ideal)) :
    (TRef.of (sig := sig) (T := ⟨S_, .f32⟩) main_cst_8 h1 h2 h3).ofBuf v = v := rfl
theorem operand2 (h1 h2 h3) (v : (⟨S100000, .f32⟩ : BufTy).Contents (Elt Ideal)) :
    (TRef.of (sig := sig) (T := ⟨S100000, .f32⟩) main_v41 h1 h2 h3).ofBuf v = v := rfl
theorem result2 (h1 h2 h3) (v : (⟨S100000, .f32⟩ : BufTy).Contents (Elt Ideal)) :
    (TRef.of (sig := sig) (T := ⟨S100000, .f32⟩) main_v42 h1 h2 h3).toBuf v = v := rfl

/-- Call 3 of the clamp: its constant, its operand and its result pass between the buffers' declared types and the
    values' types unchanged (the types are the same once the buffer table is read). -/
theorem const3 (h1 h2 h3) (v : (⟨S_, .f32⟩ : BufTy).Contents (Elt Ideal)) :
    (TRef.of (sig := sig) (T := ⟨S_, .f32⟩) main_cst_10 h1 h2 h3).ofBuf v = v := rfl
theorem operand3 (h1 h2 h3) (v : (⟨S100000, .f32⟩ : BufTy).Contents (Elt Ideal)) :
    (TRef.of (sig := sig) (T := ⟨S100000, .f32⟩) main_v45 h1 h2 h3).ofBuf v = v := rfl
theorem result3 (h1 h2 h3) (v : (⟨S100000, .f32⟩ : BufTy).Contents (Elt Ideal)) :
    (TRef.of (sig := sig) (T := ⟨S100000, .f32⟩) main_v46 h1 h2 h3).toBuf v = v := rfl

/-- Call 4 of the clamp: its constant, its operand and its result pass between the buffers' declared types and the
    values' types unchanged (the types are the same once the buffer table is read). -/
theorem const4 (h1 h2 h3) (v : (⟨S_, .f32⟩ : BufTy).Contents (Elt Ideal)) :
    (TRef.of (sig := sig) (T := ⟨S_, .f32⟩) main_cst_16 h1 h2 h3).ofBuf v = v := rfl
theorem operand4 (h1 h2 h3) (v : (⟨S100000, .f32⟩ : BufTy).Contents (Elt Ideal)) :
    (TRef.of (sig := sig) (T := ⟨S100000, .f32⟩) main_v75 h1 h2 h3).ofBuf v = v := rfl
theorem result4 (h1 h2 h3) (v : (⟨S100000, .f32⟩ : BufTy).Contents (Elt Ideal)) :
    (TRef.of (sig := sig) (T := ⟨S100000, .f32⟩) main_v76 h1 h2 h3).toBuf v = v := rfl

/-- Call 5 of the clamp: its constant, its operand and its result pass between the buffers' declared types and the
    values' types unchanged (the types are the same once the buffer table is read). -/
theorem const5 (h1 h2 h3) (v : (⟨S_, .f32⟩ : BufTy).Contents (Elt Ideal)) :
    (TRef.of (sig := sig) (T := ⟨S_, .f32⟩) main_cst_18 h1 h2 h3).ofBuf v = v := rfl
theorem operand5 (h1 h2 h3) (v : (⟨S100000, .f32⟩ : BufTy).Contents (Elt Ideal)) :
    (TRef.of (sig := sig) (T := ⟨S100000, .f32⟩) main_v79 h1 h2 h3).ofBuf v = v := rfl
theorem result5 (h1 h2 h3) (v : (⟨S100000, .f32⟩ : BufTy).Contents (Elt Ideal)) :
    (TRef.of (sig := sig) (T := ⟨S100000, .f32⟩) main_v80 h1 h2 h3).toBuf v = v := rfl

/-- Call 6 of the clamp: its constant, its operand and its result pass between the buffers' declared types and the
    values' types unchanged (the types are the same once the buffer table is read). -/
theorem const6 (h1 h2 h3) (v : (⟨S_, .f32⟩ : BufTy).Contents (Elt Ideal)) :
    (TRef.of (sig := sig) (T := ⟨S_, .f32⟩) main_cst_24 h1 h2 h3).ofBuf v = v := rfl
theorem operand6 (h1 h2 h3) (v : (⟨S100000, .f32⟩ : BufTy).Contents (Elt Ideal)) :
    (TRef.of (sig := sig) (T := ⟨S100000, .f32⟩) main_v109 h1 h2 h3).ofBuf v = v := rfl
theorem result6 (h1 h2 h3) (v : (⟨S100000, .f32⟩ : BufTy).Contents (Elt Ideal)) :
    (TRef.of (sig := sig) (T := ⟨S100000, .f32⟩) main_v110 h1 h2 h3).toBuf v = v := rfl

/-- Call 7 of the clamp: its constant, its operand and its result pass between the buffers' declared types and the
    values' types unchanged (the types are the same once the buffer table is read). -/
theorem const7 (h1 h2 h3) (v : (⟨S_, .f32⟩ : BufTy).Contents (Elt Ideal)) :
    (TRef.of (sig := sig) (T := ⟨S_, .f32⟩) main_cst_26 h1 h2 h3).ofBuf v = v := rfl
theorem operand7 (h1 h2 h3) (v : (⟨S100000, .f32⟩ : BufTy).Contents (Elt Ideal)) :
    (TRef.of (sig := sig) (T := ⟨S100000, .f32⟩) main_v113 h1 h2 h3).ofBuf v = v := rfl
theorem result7 (h1 h2 h3) (v : (⟨S100000, .f32⟩ : BufTy).Contents (Elt Ideal)) :
    (TRef.of (sig := sig) (T := ⟨S100000, .f32⟩) main_v114 h1 h2 h3).toBuf v = v := rfl

/-- At Ideal a change of float format is the identity on every entry, narrowing or widening. -/
theorem narrow_id {s : Shape} (v : FVec Ideal s .f32) (h) : (truncf .bf16 v h : s.Idx → EReal) = v := rfl
theorem widen_id {s : Shape} (v : FVec Ideal s .bf16) (h) : (extf .f32 v h : s.Idx → EReal) = v := rfl

end Cert.KernelIdeal.HostSide

end
-- ==== Proof.HostAggregate0.lean ====
/-
  Relation 0's aggregate, as the kernel's host code leaves it for the region, is the reference's.

  Both programs compute it from the edge list and X by the same steps: count each node's out-degree and in-degree by
  scatter-adding ones over the relation's sources and destinations, clamp both below by 1, scale row v of X by
  deg_out(v)^(-1/2), gather the scaled rows at the edges' sources (a negative index wrapped by the row count), scatter-add
  them at the edges' destinations into zeros, and scale row v of the sum by deg_in(v)^(-1/2). The kernel's host code also
  narrows the scaled rows to bf16 before the gather, widens the gathered rows back, and narrows the result once more; on
  the extended reals each of these is the identity. With those and the clamp's bookkeeping removed, the kernel's term of
  the two arguments and the reference's stage are the same composition of the same operations.
-/
import proofs.«109524_j1056561954823_2_alg».proof.Proof.Gen.KernelIdeal.Frame
import proofs.«109524_j1056561954823_2_alg».proof.Proof.Gen.ReferenceIdeal.Read
import proofs.«109524_j1056561954823_2_alg».proof.Proof.HostTransports
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array the region finds as its operand 0 is the reference's aggregate of relation 0, as a function of the edge
    list and X. -/
theorem aggregate0_eq (c : Dev nD) :
    (V m c main_v33 : S100000x128.Idx → EReal)
      = Cert.ReferenceIdeal.Read.val_main_v33 (F := Ideal) (m ((c : Thread nD τ).loc main_arg0))
          (m ((c : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [Cert.Lib.TypedRefs.ofBuf_toBuf, const0, operand0, result0, const1, operand1, result1, const2, operand2, result2, const3, operand3, result3, const4, operand4, result4, const5, operand5, result5, const6, operand6, result6, const7, operand7, result7, narrow_id, widen_id, id]
  rfl

end Cert.KernelIdeal.HostSide

end
-- ==== Proof.HostAggregate1.lean ====
/-
  Relation 1's aggregate, as the kernel's host code leaves it for the region, is the reference's.

  Both programs compute it from the edge list and X by the same steps: count each node's out-degree and in-degree by
  scatter-adding ones over the relation's sources and destinations, clamp both below by 1, scale row v of X by
  deg_out(v)^(-1/2), gather the scaled rows at the edges' sources (a negative index wrapped by the row count), scatter-add
  them at the edges' destinations into zeros, and scale row v of the sum by deg_in(v)^(-1/2). The kernel's host code also
  narrows the scaled rows to bf16 before the gather, widens the gathered rows back, and narrows the result once more; on
  the extended reals each of these is the identity. With those and the clamp's bookkeeping removed, the kernel's term of
  the two arguments and the reference's stage are the same composition of the same operations.
-/
import proofs.«109524_j1056561954823_2_alg».proof.Proof.Gen.KernelIdeal.Frame
import proofs.«109524_j1056561954823_2_alg».proof.Proof.Gen.ReferenceIdeal.Read
import proofs.«109524_j1056561954823_2_alg».proof.Proof.HostTransports
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array the region finds as its operand 1 is the reference's aggregate of relation 1, as a function of the edge
    list and X. -/
theorem aggregate1_eq (c : Dev nD) :
    (V m c main_v67 : S100000x128.Idx → EReal)
      = Cert.ReferenceIdeal.Read.val_main_v68 (F := Ideal) (m ((c : Thread nD τ).loc main_arg0))
          (m ((c : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [Cert.Lib.TypedRefs.ofBuf_toBuf, const0, operand0, result0, const1, operand1, result1, const2, operand2, result2, const3, operand3, result3, const4, operand4, result4, const5, operand5, result5, const6, operand6, result6, const7, operand7, result7, narrow_id, widen_id, id]
  rfl

end Cert.KernelIdeal.HostSide

end
-- ==== Proof.HostAggregate2.lean ====
/-
  Relation 2's aggregate, as the kernel's host code leaves it for the region, is the reference's.

  Both programs compute it from the edge list and X by the same steps: count each node's out-degree and in-degree by
  scatter-adding ones over the relation's sources and destinations, clamp both below by 1, scale row v of X by
  deg_out(v)^(-1/2), gather the scaled rows at the edges' sources (a negative index wrapped by the row count), scatter-add
  them at the edges' destinations into zeros, and scale row v of the sum by deg_in(v)^(-1/2). The kernel's host code also
  narrows the scaled rows to bf16 before the gather, widens the gathered rows back, and narrows the result once more; on
  the extended reals each of these is the identity. With those and the clamp's bookkeeping removed, the kernel's term of
  the two arguments and the reference's stage are the same composition of the same operations.
-/
import proofs.«109524_j1056561954823_2_alg».proof.Proof.Gen.KernelIdeal.Frame
import proofs.«109524_j1056561954823_2_alg».proof.Proof.Gen.ReferenceIdeal.Read
import proofs.«109524_j1056561954823_2_alg».proof.Proof.HostTransports
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array the region finds as its operand 2 is the reference's aggregate of relation 2, as a function of the edge
    list and X. -/
theorem aggregate2_eq (c : Dev nD) :
    (V m c main_v101 : S100000x128.Idx → EReal)
      = Cert.ReferenceIdeal.Read.val_main_v103 (F := Ideal) (m ((c : Thread nD τ).loc main_arg0))
          (m ((c : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [Cert.Lib.TypedRefs.ofBuf_toBuf, const0, operand0, result0, const1, operand1, result1, const2, operand2, result2, const3, operand3, result3, const4, operand4, result4, const5, operand5, result5, const6, operand6, result6, const7, operand7, result7, narrow_id, widen_id, id]
  rfl

end Cert.KernelIdeal.HostSide

end
-- ==== Proof.HostAggregate3.lean ====
/-
  Relation 3's aggregate, as the kernel's host code leaves it for the region, is the reference's.

  Both programs compute it from the edge list and X by the same steps: count each node's out-degree and in-degree by
  scatter-adding ones over the relation's sources and destinations, clamp both below by 1, scale row v of X by
  deg_out(v)^(-1/2), gather the scaled rows at the edges' sources (a negative index wrapped by the row count), scatter-add
  them at the edges' destinations into zeros, and scale row v of the sum by deg_in(v)^(-1/2). The kernel's host code also
  narrows the scaled rows to bf16 before the gather, widens the gathered rows back, and narrows the result once more; on
  the extended reals each of these is the identity. With those and the clamp's bookkeeping removed, the kernel's term of
  the two arguments and the reference's stage are the same composition of the same operations.
-/
import proofs.«109524_j1056561954823_2_alg».proof.Proof.Gen.KernelIdeal.Frame
import proofs.«109524_j1056561954823_2_alg».proof.Proof.Gen.ReferenceIdeal.Read
import proofs.«109524_j1056561954823_2_alg».proof.Proof.HostTransports
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array the region finds as its operand 3 is the reference's aggregate of relation 3, as a function of the edge
    list and X. -/
theorem aggregate3_eq (c : Dev nD) :
    (V m c main_v135 : S100000x128.Idx → EReal)
      = Cert.ReferenceIdeal.Read.val_main_v138 (F := Ideal) (m ((c : Thread nD τ).loc main_arg0))
          (m ((c : Thread nD τ).loc main_arg1)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  simp only [Cert.Lib.TypedRefs.ofBuf_toBuf, const0, operand0, result0, const1, operand1, result1, const2, operand2, result2, const3, operand3, result3, const4, operand4, result4, const5, operand5, result5, const6, operand6, result6, const7, operand7, result7, narrow_id, widen_id, id]
  rfl

end Cert.KernelIdeal.HostSide

end
-- ==== Proof.HostWeights.lean ====
/-
  The weights the region finds are the weights argument: the kernel's host code only narrows them to bf16, which on the
  extended reals changes no entry.
-/
import proofs.«109524_j1056561954823_2_alg».proof.Proof.Gen.KernelIdeal.Frame
import proofs.«109524_j1056561954823_2_alg».proof.Proof.Gen.ReferenceIdeal.Read
import proofs.«109524_j1056561954823_2_alg».proof.Proof.HostTransports
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The array the region finds as its operand 4 is the weights argument. -/
theorem weights_eq (c : Dev nD) :
    (V m c main_v136 : S4x128x128.Idx → EReal) = m ((c : Thread nD τ).loc main_arg2) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.KernelIdeal.HostSide

end
-- ==== Proof.KernelValue.lean ====
/-
  The kernel's result as a function of its three arguments.

  The region's run leaves the result array at `relationSum` of the five arrays the region is launched on; each of those
  is a function of the arguments computed by the host code before the region: the four aggregates are the reference's
  aggregates of the edge list and X, and the weights are the weights argument. Substituting, the kernel's result is
  `relationSum` of the reference's four aggregate stages and the weights argument — the very function the reference's own
  result is.
-/
import proofs.«109524_j1056561954823_2_alg».proof.Proof.TileValue
import proofs.«109524_j1056561954823_2_alg».proof.Proof.HostAggregate0
import proofs.«109524_j1056561954823_2_alg».proof.Proof.HostAggregate1
import proofs.«109524_j1056561954823_2_alg».proof.Proof.HostAggregate2
import proofs.«109524_j1056561954823_2_alg».proof.Proof.HostAggregate3
import proofs.«109524_j1056561954823_2_alg».proof.Proof.HostWeights

noncomputable section

namespace Cert.KernelIdeal.Whole

open Cert.KernelIdeal Cert.KernelIdeal.Gen Idealize.ShloMosaic Idealize.ShloMosaic.TcCoe Idealize.SL.Sem
open Cert.RelationSum Cert.KernelIdeal.HostSide

variable (m : (ℓ : Loc nD τ sig) → Buf (Elt Ideal) ℓ) (ρ : Dev nD → PrngReg)

/-- The result as a function of the arguments: `relationSum` of the four aggregates of the edge list and X, and the
    weights. -/
abbrev result (c : Dev nD) : S100000x128.Idx → EReal :=
  relationSum
    (Cert.ReferenceIdeal.Read.val_main_v33 (F := Ideal) (m ((c : Thread nD τ).loc main_arg0)) (m ((c : Thread nD τ).loc main_arg1)))
    (Cert.ReferenceIdeal.Read.val_main_v68 (F := Ideal) (m ((c : Thread nD τ).loc main_arg0)) (m ((c : Thread nD τ).loc main_arg1)))
    (Cert.ReferenceIdeal.Read.val_main_v103 (F := Ideal) (m ((c : Thread nD τ).loc main_arg0)) (m ((c : Thread nD τ).loc main_arg1)))
    (Cert.ReferenceIdeal.Read.val_main_v138 (F := Ideal) (m ((c : Thread nD τ).loc main_arg0)) (m ((c : Thread nD τ).loc main_arg1)))
    (m ((c : Thread nD τ).loc main_arg2))

/-- The arrays the region is launched on, substituted by what the host code made them. -/
theorem entry_arrays (c : Dev nD) :
    relationSum (V m c main_v33) (V m c main_v67) (V m c main_v101) (V m c main_v135) (V m c main_v136) = result m c := by
  rw [aggregate0_eq m c, aggregate1_eq m c, aggregate2_eq m c, aggregate3_eq m c, weights_eq m c]

/-- The kernel's run: every execution ends with the result array at `result` of the arguments, the arguments unchanged. -/
theorem run : θ_run defs (onTc (τ := τ) (main (F := Ideal))) ⟨m, fun _ => 0, ρ⟩ fun r => ∀ c : Dev nD,
      r.2.mem ((c : Thread nD τ).loc main_v137) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (entry_arrays m c), (h c).2⟩) (Cert.KernelIdeal.Tile.run m ρ)

end Cert.KernelIdeal.Whole

end
-- ==== Proof.ReferenceValue.lean ====
/-
  The reference's result as `relationSum`.

  The reference starts from an array of zeros and, relation by relation, adds the product of that relation's aggregate
  (its stages %33, %68, %103, %138) with that relation's weight matrix, which it gets by slicing block r out of the weights
  and casting the [1, 128, 128] slice to [128, 128]. Read at an entry (i, j): the host's contraction is the sum over k of
  aggregate(i, k) · matrix(k, j); the matrix at (k, j) is the weights at (r, k, j), because the cast keeps row-major
  positions ((0·128 + k)·128 + j = k·128 + j) and the slice starts at block r; the zeros contribute 0 + a = a. So the
  last stage is `relationSum` of the four aggregate stages and the weights argument, with no condition on any entry.
-/
import proofs.«109524_j1056561954823_2_alg».proof.Proof.Gen.ReferenceIdeal.Read
import proofs.«109524_j1056561954823_2_alg».proof.Proof.RelationSum
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.RelationSum
open scoped BigOperators

/-- Relation 0: the product's left factor at contraction coordinate k is the aggregate at (row of i, k). -/
theorem left0 (i : S100000x128.Idx) (k : Fin 128) : lidx_main_v34 i k = ix2 (i 0) k :=
  funext fun a => Fin.ext (by match a with | ⟨0, _⟩ => rfl | ⟨1, _⟩ => rfl)

/-- Relation 0: the product's right factor at contraction coordinate k is the weights at (0, k, column of i) —
    through the cast of the [1, 128, 128] slice to a matrix and the slice itself. -/
theorem right0 (i : S100000x128.Idx) (k : Fin 128) :
    idx_main_v5 (idx_main_v6 (ridx_main_v34 i k)) = ix3 (0 : Fin 4) k (i 1) := by
  have hk : k.val < 128 := k.isLt
  have hi : (i 1).val < 128 := (i 1).isLt
  refine funext fun a => Fin.ext ?_
  match a with
  | ⟨0, _⟩ => rfl
  | ⟨1, _⟩ => show (k.val * 128 + (i 1).val) / 128 % 128 = k.val; omega
  | ⟨2, _⟩ => show (k.val * 128 + (i 1).val) % 128 = (i 1).val; omega

/-- Relation 1: the product's left factor at contraction coordinate k is the aggregate at (row of i, k). -/
theorem left1 (i : S100000x128.Idx) (k : Fin 128) : lidx_main_v69 i k = ix2 (i 0) k :=
  funext fun a => Fin.ext (by match a with | ⟨0, _⟩ => rfl | ⟨1, _⟩ => rfl)

/-- Relation 1: the product's right factor at contraction coordinate k is the weights at (1, k, column of i) —
    through the cast of the [1, 128, 128] slice to a matrix and the slice itself. -/
theorem right1 (i : S100000x128.Idx) (k : Fin 128) :
    idx_main_v40 (idx_main_v41 (ridx_main_v69 i k)) = ix3 (1 : Fin 4) k (i 1) := by
  have hk : k.val < 128 := k.isLt
  have hi : (i 1).val < 128 := (i 1).isLt
  refine funext fun a => Fin.ext ?_
  match a with
  | ⟨0, _⟩ => rfl
  | ⟨1, _⟩ => show (k.val * 128 + (i 1).val) / 128 % 128 = k.val; omega
  | ⟨2, _⟩ => show (k.val * 128 + (i 1).val) % 128 = (i 1).val; omega

/-- Relation 2: the product's left factor at contraction coordinate k is the aggregate at (row of i, k). -/
theorem left2 (i : S100000x128.Idx) (k : Fin 128) : lidx_main_v104 i k = ix2 (i 0) k :=
  funext fun a => Fin.ext (by match a with | ⟨0, _⟩ => rfl | ⟨1, _⟩ => rfl)

/-- Relation 2: the product's right factor at contraction coordinate k is the weights at (2, k, column of i) —
    through the cast of the [1, 128, 128] slice to a matrix and the slice itself. -/
theorem right2 (i : S100000x128.Idx) (k : Fin 128) :
    idx_main_v75 (idx_main_v76 (ridx_main_v104 i k)) = ix3 (2 : Fin 4) k (i 1) := by
  have hk : k.val < 128 := k.isLt
  have hi : (i 1).val < 128 := (i 1).isLt
  refine funext fun a => Fin.ext ?_
  match a with
  | ⟨0, _⟩ => rfl
  | ⟨1, _⟩ => show (k.val * 128 + (i 1).val) / 128 % 128 = k.val; omega
  | ⟨2, _⟩ => show (k.val * 128 + (i 1).val) % 128 = (i 1).val; omega

/-- Relation 3: the product's left factor at contraction coordinate k is the aggregate at (row of i, k). -/
theorem left3 (i : S100000x128.Idx) (k : Fin 128) : lidx_main_v139 i k = ix2 (i 0) k :=
  funext fun a => Fin.ext (by match a with | ⟨0, _⟩ => rfl | ⟨1, _⟩ => rfl)

/-- Relation 3: the product's right factor at contraction coordinate k is the weights at (3, k, column of i) —
    through the cast of the [1, 128, 128] slice to a matrix and the slice itself. -/
theorem right3 (i : S100000x128.Idx) (k : Fin 128) :
    idx_main_v110 (idx_main_v111 (ridx_main_v139 i k)) = ix3 (3 : Fin 4) k (i 1) := by
  have hk : k.val < 128 := k.isLt
  have hi : (i 1).val < 128 := (i 1).isLt
  refine funext fun a => Fin.ext ?_
  match a with
  | ⟨0, _⟩ => rfl
  | ⟨1, _⟩ => show (k.val * 128 + (i 1).val) / 128 % 128 = k.val; omega
  | ⟨2, _⟩ => show (k.val * 128 + (i 1).val) % 128 = (i 1).val; omega

/-- THE REFERENCE'S RESULT: its last stage is `relationSum` of its four aggregate stages and the weights. -/
theorem result_eq (x0 : (⟨S4x2x600000, .i32⟩ : BufTy).Contents (Elt Ideal)) (x1 : (⟨S100000x128, .f32⟩ : BufTy).Contents (Elt Ideal))
    (x2 : (⟨S4x128x128, .f32⟩ : BufTy).Contents (Elt Ideal)) :
    val_main_v140 (F := Ideal) x0 x1 x2
      = relationSum (val_main_v33 (F := Ideal) x0 x1) (val_main_v68 (F := Ideal) x0 x1) (val_main_v103 (F := Ideal) x0 x1)
          (val_main_v138 (F := Ideal) x0 x1) x2 := by
  funext i
  rw [val_main_v140_apply, val_main_v105_apply, val_main_v70_apply, val_main_v35_apply, val_main_v0_apply,
    val_main_cst_apply, val_main_v34_apply, val_main_v69_apply, val_main_v104_apply, val_main_v139_apply]
  simp only [val_main_v6_apply, val_main_v5_apply, val_main_v41_apply, val_main_v40_apply, val_main_v76_apply,
    val_main_v75_apply, val_main_v111_apply, val_main_v110_apply, left0, left1, left2, left3, right0, right1, right2,
    right3, Ideal.addf_def, Ideal.ofBits_def, Ideal.ofBits_zero_f32, zero_add]
  rfl

end Cert.ReferenceIdeal.RefValue

end
-- ==== Proof.lean ====
/-
  The kernel against its reference: a sum over four relations of graph-convolution transforms, on the extended reals.

  For each relation r both programs form the same aggregate A_r of the edge list and the features X (degree counts by
  scatter-add, clamped below by 1; rows of X scaled by deg_out^(-1/2), gathered at the sources, scatter-added at the
  destinations, scaled by deg_in^(-1/2)); the kernel's host code also passes the scaled rows and the aggregate through
  bf16, which is the identity here. The reference then adds, onto an array of zeros, the products A_r · W_r one relation
  after the other; the kernel computes, tile of 4000 rows by tile, (((A_0·W_0 + A_1·W_1) + A_2·W_2) + A_3·W_3) on the
  matrix unit, accumulating each product into zero. Entry (i, j) of either result is therefore

      ((Σₖ A_0(i,k)·W(0,k,j) + Σₖ A_1(i,k)·W(1,k,j)) + Σₖ A_2(i,k)·W(2,k,j)) + Σₖ A_3(i,k)·W(3,k,j),

  the reference's with a leading 0 +, which adds nothing. No entry needs to be finite for this: only 0 + a = a is used,
  and the precondition is never opened.

  The modules: RelationSum (that function of whole arrays), BodyEntry (the body's stored value at an entry), TileValue
  (a point's tile, the cover, the region's run), HostAggregate0–3 and HostWeights (the arrays the region is launched on,
  as functions of the arguments), KernelValue (the kernel's run over the arguments), ReferenceValue (the reference's last
  stage is the same function). The three frames are the generated ones; the idealization rewrote nothing, so `preserves`
  has nothing to state.
-/
import proofs.«109524_j1056561954823_2_alg».proof.Defs
import proofs.«109524_j1056561954823_2_alg».proof.Proof.Gen.Kernel
import proofs.«109524_j1056561954823_2_alg».proof.Proof.Gen.Kernel.Skeleton
import proofs.«109524_j1056561954823_2_alg».proof.Proof.Gen.Kernel.Launch
import proofs.«109524_j1056561954823_2_alg».proof.Proof.Gen.Kernel.Points
import proofs.«109524_j1056561954823_2_alg».proof.Proof.Gen.Kernel.Frame
import proofs.«109524_j1056561954823_2_alg».proof.Proof.Gen.KernelIdeal
import proofs.«109524_j1056561954823_2_alg».proof.Proof.Gen.KernelIdeal.Skeleton
import proofs.«109524_j1056561954823_2_alg».proof.Proof.Gen.KernelIdeal.Launch
import proofs.«109524_j1056561954823_2_alg».proof.Proof.Gen.KernelIdeal.Points
import proofs.«109524_j1056561954823_2_alg».proof.Proof.Gen.KernelIdeal.Frame
import proofs.«109524_j1056561954823_2_alg».proof.Proof.Gen.ReferenceIdeal
import proofs.«109524_j1056561954823_2_alg».proof.Proof.Gen.KernelIdeal.Value
import proofs.«109524_j1056561954823_2_alg».proof.Proof.Gen.ReferenceIdeal.Run
import proofs.«109524_j1056561954823_2_alg».proof.Proof.Gen.ReferenceIdeal.Read
import proofs.«109524_j1056561954823_2_alg».proof.Proof.Gen.Pre_finite_inputs
import proofs.«109524_j1056561954823_2_alg».proof.Proof.KernelValue
import proofs.«109524_j1056561954823_2_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs, from memories that agree on the arguments, end with the same result array: both are
    `relationSum` of the four aggregates of the edge list and X, and the weights. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v140_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
